-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x7 : S_.BroadcastsInDim S4096x7 (![] : Fin 0 → Fin S4096x7.rank)
  reducesTo_S4096x7_S_d0_1 : S4096x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part1 {F : FTy → Type} [FloatOps F] (main_arg4 : FVec F S7x7 .f32) (main_arg5 : FVec F S7 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S16384x4096 .f32) (main_arg1 : FVec F S16384x4096 .f32) (main_arg2 : FVec F S4096x7 .f32) (main_arg3 : FVec F S7 .f32) (main_arg4 : FVec F S7x7 .f32) (main_arg5 : FVec F S7 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x7 .f32 := Host.absf main_arg2
  let main_cst_2 : FVec F S_ .f32 := constant S_ .f32 0x7F800000#32
  let main_v10 : FVec F S4096x7 .f32 := broadcastInDim S4096x7 ![] bcast_S_S4096x7 main_cst_2
  let main_v11 : IVec S4096x7 1 := cmpf .olt main_v9 main_v10
  let main_c_3 : IVec S_ 1 := constantI S_ 1 1#1
  let main_v12 : IVec S_ 1 := (fun x v => Host.reduce IntOp.andi x v reducesTo_S4096x7_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg4 main_arg5 main_v13 main_v16
-- ==== Kernel.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S7x4096 : Shape := ⟨2, ![7, 4096]⟩
abbrev S1x7 : Shape := ⟨2, ![1, 7]⟩
abbrev S512x4096 : Shape := ⟨2, ![512, 4096]⟩
abbrev S512x7 : Shape := ⟨2, ![512, 7]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x7, .f32⟩
  | .hbm, ⟨3, _⟩ => ⟨S7, .f32⟩
  | .hbm, ⟨4, _⟩ => ⟨S7x7, .f32⟩
  | .hbm, ⟨5, _⟩ => ⟨S7, .f32⟩
  | .hbm, ⟨6, _⟩ => ⟨S7x4096, .f32⟩
  | .hbm, ⟨7, _⟩ => ⟨S1x7, .f32⟩
  | .hbm, ⟨8, _⟩ => ⟨S1x7, .f32⟩
  | .hbm, ⟨9, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S7x4096, .f32⟩
  | .local _ .vmem, ⟨5, _⟩ => ⟨S1x7, .f32⟩
  | .local _ .vmem, ⟨6, _⟩ => ⟨S7x7, .f32⟩
  | .local _ .vmem, ⟨7, _⟩ => ⟨S1x7, .f32⟩
  | .local _ .vmem, ⟨8, _⟩ => ⟨S512x4096, .f32⟩
  | .local _ .vmem, ⟨9, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4096x7_S7x4096_1_0 : S4096x7.Transposes [1, 0] S7x4096
  shapeCasts_S7_S1x7 : S7.ShapeCasts S1x7
  inb_S512x4096_S512x4096_0_0 : ∀ a, (![0, 0] : Fin 2 → Nat) a + S512x4096.size a ≤ S512x4096.size a
  h_S512x4096 : 0 < S512x4096.numel
  inb_S7x4096_S7x4096_0_0 : ∀ a, (![0, 0] : Fin 2 → Nat) a + S7x4096.size a ≤ S7x4096.size a
  h_S7x4096 : 0 < S7x4096.numel
  shapeCasts_S7x4096_S7x4096 : S7x4096.ShapeCasts S7x4096
  inb_S1x7_S1x7_0_0 : ∀ a, (![0, 0] : Fin 2 → Nat) a + S1x7.size a ≤ S1x7.size a
  h_S1x7 : 0 < S1x7.numel
  shapeCasts_S1x7_S1x7 : S1x7.ShapeCasts S1x7
  inb_S7x7_S7x7_0_0 : ∀ a, (![0, 0] : Fin 2 → Nat) a + S7x7.size a ≤ S7x7.size a
  h_S7x7 : 0 < S7x7.numel
  broadcasts_S1x7_S512x7 : S1x7.Broadcasts S512x7
  reduces_S512x7_S512 : S512x7.Reduces [1] S512
  shapeCasts_S512_S512x1 : S512.ShapeCasts S512x1
  broadcasts_S512x1_S512x4096 : S512x1.Broadcasts S512x4096
  dot_S512x4096_S7x4096_S512x7_1_1_0_0_n_n_wf : DotDims.WF S512x4096 S7x4096 S512x7 [1] [1] [0] [0] [] []
  dot_S512x7_S7x7_S512x7_1_0_0_1_n_n_wf : DotDims.WF S512x7 S7x7 S512x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x4096.size a ≤ S7x4096.size a
  hwx0_2 : ∀ i : grid0.Coords, EltTy.bits .f32 = 32 ∨ (Rect.block (s := S7x4096) S7x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x7.size a ≤ S7x7.size a
  hwx0_4 : ∀ i : grid0.Coords, EltTy.bits .f32 = 32 ∨ (Rect.block (s := S7x7) S7x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S16384x4096.size a
  hwx0_6 : ∀ i : grid0.Coords, EltTy.bits .f32 = 32 ∨ (Rect.block (s := S16384x4096) S512x4096.size (cc0_transform_6 i) (hinb0_6 i)).WholeWords (EltTy.packing .f32)

variable [Facts₀]

def dot_S512x4096_S7x4096_S512x7_1_1_0_0_n_n : DotDims S512x4096 S7x4096 S512x7 where
  lhsContracting := [1]
  rhsContracting := [1]
  lhsNonContracting := [0]
  rhsNonContracting := [0]
  lhsBatch := []
  rhsBatch := []
  wf := dot_S512x4096_S7x4096_S512x7_1_1_0_0_n_n_wf
def dot_S512x7_S7x7_S512x7_1_0_0_1_n_n : DotDims S512x7 S7x7 S512x7 where
  lhsContracting := [1]
  rhsContracting := [0]
  lhsNonContracting := [0]
  rhsNonContracting := [1]
  lhsBatch := []
  rhsBatch := []
  wf := dot_S512x7_S7x7_S512x7_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x7 : Shape := ⟨2, ![4096, 7]⟩
abbrev S7 : Shape := ⟨1, ![7]⟩
abbrev S7x7 : Shape := ⟨2, ![7, 7]⟩
abbrev S16384x7 : Shape := ⟨2, ![16384, 7]⟩
abbrev S1x7 : Shape := ⟨2, ![1, 7]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 62
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096x7, .f32⟩
  | .hbm, ⟨3, _⟩ => ⟨S7, .f32⟩
  | .hbm, ⟨4, _⟩ => ⟨S7x7, .f32⟩
  | .hbm, ⟨5, _⟩ => ⟨S7, .f32⟩
  | .hbm, ⟨6, _⟩ => ⟨S16384x7, .f32⟩
  | .hbm, ⟨7, _⟩ => ⟨S1x7, .f32⟩
  | .hbm, ⟨8, _⟩ => ⟨S16384x7, .f32⟩
  | .hbm, ⟨9, _⟩ => ⟨S16384x7, .f32⟩
  | .hbm, ⟨10, _⟩ => ⟨S_, .f32⟩
  | .hbm, ⟨11, _⟩ => ⟨S16384x7, .f32⟩
  | .hbm, ⟨12, _⟩ => ⟨S16384x7, .f32⟩
  | .hbm, ⟨13, _⟩ => ⟨S16384x7, .f32⟩
  | .hbm, ⟨14, _⟩ => ⟨S1x7, .f32⟩
  | .hbm, ⟨15, _⟩ => ⟨S16384x7, .f32⟩
  | .hbm, ⟨16, _⟩ => ⟨S16384x7, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x7, .f32⟩
  | .hbm, ⟨23, _⟩ => ⟨S1x7, .f32⟩
  | .hbm, ⟨24, _⟩ => ⟨S16384x7, .f32⟩
  | .hbm, ⟨25, _⟩ => ⟨S16384x7, .f32⟩
  | .hbm, ⟨26, _⟩ => ⟨S_, .f32⟩
  | .hbm, ⟨27, _⟩ => ⟨S16384x7, .f32⟩
  | .hbm, ⟨28, _⟩ => ⟨S16384x7, .f32⟩
  | .hbm, ⟨29, _⟩ => ⟨S16384x7, .f32⟩
  | .hbm, ⟨30, _⟩ => ⟨S1x7, .f32⟩
  | .hbm, ⟨31, _⟩ => ⟨S16384x7, .f32⟩
  | .hbm, ⟨32, _⟩ => ⟨S16384x7, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x1, .f32⟩
  | .hbm, ⟨40, _⟩ => ⟨S16384x2, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x2, .f32⟩
  | .hbm, ⟨48, _⟩ => ⟨S16384x2, .f32⟩
  | .hbm, ⟨49, _⟩ => ⟨S16384x2, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x2, .f32⟩
  | .hbm, ⟨54, _⟩ => ⟨S16384x2, .f32⟩
  | .hbm, ⟨55, _⟩ => ⟨S16384x1, .f32⟩
  | .hbm, ⟨56, _⟩ => ⟨S16384x4096, .f32⟩
  | .hbm, ⟨57, _⟩ => ⟨S16384x4096, .f32⟩
  | .hbm, ⟨58, _⟩ => ⟨S16384x1, .f32⟩
  | .hbm, ⟨59, _⟩ => ⟨S16384x4096, .f32⟩
  | .hbm, ⟨60, _⟩ => ⟨S16384x4096, .f32⟩
  | .hbm, ⟨61, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S16384x7_0_1 : S1x7.BroadcastsInDim S16384x7 (![0, 1] : Fin 2 → Fin S16384x7.rank)
  bcast_S_S16384x7 : S_.BroadcastsInDim S16384x7 (![] : Fin 0 → Fin S16384x7.rank)
  reducesTo_S16384x7_S16384_d1 : S16384x7.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x2_S16384_d1 : S16384x2.ReducesTo [1] S16384
  bcast_S16384x1_S16384x2_0_1 : S16384x1.BroadcastsInDim S16384x2 (![0, 1] : Fin 2 → Fin S16384x2.rank)
  slices_S16384x2_S16384x1_0_0 : S16384x2.Slices ![0, 0] S16384x1
  bcast_S16384x1_S16384x4096_0_1 : S16384x1.BroadcastsInDim S16384x4096 (![0, 1] : Fin 2 → Fin S16384x4096.rank)
  slices_S16384x2_S16384x1_0_1 : S16384x2.Slices ![0, 1] S16384x1
  dot_S16384x4096_S4096x7_S16384x7_1_0_0_1_n_n_wf : DotDims.WF S16384x4096 S4096x7 S16384x7 [1] [0] [0] [1] [] []
  dot_S16384x7_S7x7_S16384x7_1_0_0_1_n_n_wf : DotDims.WF S16384x7 S7x7 S16384x7 [1] [0] [0] [1] [] []

variable [Facts₀]

def dot_S16384x4096_S4096x7_S16384x7_1_0_0_1_n_n : DotDims S16384x4096 S4096x7 S16384x7 where
  lhsContracting := [1]
  rhsContracting := [0]
  lhsNonContracting := [0]
  rhsNonContracting := [1]
  lhsBatch := []
  rhsBatch := []
  wf := dot_S16384x4096_S4096x7_S16384x7_1_0_0_1_n_n_wf
def dot_S16384x7_S7x7_S16384x7_1_0_0_1_n_n : DotDims S16384x7 S7x7 S16384x7 where
  lhsContracting := [1]
  rhsContracting := [0]
  lhsNonContracting := [0]
  rhsNonContracting := [1]
  lhsBatch := []
  rhsBatch := []
  wf := dot_S16384x7_S7x7_S16384x7_1_0_0_1_n_n_wf

class Facts : Prop extends Facts₀ where

variable [Facts]
-- ==== Proof.GateSpec.lean ====
/-
  The function both programs compute, on the extended reals, index by index.

  For one row `x` of 4096 features the gate network gives seven outputs
  `out o = (∑ k, max ((∑ d, x d · W1 d k) + b1 k) 0 · W2 k o) + b2 o` (a linear layer, the positive part, a second
  linear layer), and the row's logit is their mean, `(∑ o, out o) / 7`. With the two logits `l₁`, `l₂` of the same
  row of the two feature arrays and `M = max l₁ l₂`, the weights are the two-way softmax
  `aᵢ = exp (lᵢ - M) / (exp (l₁ - M) + exp (l₂ - M))`, and the result at (r, c) is
  `a₁ · X₁ (r, c) + a₂ · X₂ (r, c)`.  The divisor `7` is kept as the pattern both programs print for it.
-/
import Idealize.ShloMosaic.PureOps.Ideal
import Idealize.ShloMosaic.Lib.ValueIdx

noncomputable section

open scoped BigOperators

namespace Cert.Gating

open Idealize.ShloMosaic Idealize.ShloMosaic.ValueIdx

/-- The mean of the gate network's seven outputs on one row of features. -/
def logit (x : Fin 4096 → EReal) (w1 : Fin 4096 → Fin 7 → EReal) (b1 : Fin 7 → EReal)
    (w2 : Fin 7 → Fin 7 → EReal) (b2 : Fin 7 → EReal) : EReal :=
  Ideal.div (∑ o : Fin 7, ((∑ k : Fin 7, max ((∑ d : Fin 4096, x d * w1 d k) + b1 k) 0 * w2 k o) + b2 o))
    (Ideal.ofBits .f32 0x40E00000#32)

/-- The two-way softmax of the logits `l₁`, `l₂` (shifted by their maximum), applied to the pair `a`, `b`. -/
def mix (l1 l2 a b : EReal) : EReal :=
  Ideal.div (Ideal.exp (l1 - max l1 l2)) (Ideal.exp (l1 - max l1 l2) + Ideal.exp (l2 - max l1 l2)) * a
    + Ideal.div (Ideal.exp (l2 - max l1 l2)) (Ideal.exp (l1 - max l1 l2) + Ideal.exp (l2 - max l1 l2)) * b

/-- The logit of row `r` of a feature array, the weights and biases read by coordinates. -/
def rowLogit (X : (⟨2, ![16384, 4096]⟩ : Shape).Idx → EReal) (W1 : (⟨2, ![4096, 7]⟩ : Shape).Idx → EReal)
    (B1 : (⟨1, ![7]⟩ : Shape).Idx → EReal) (W2 : (⟨2, ![7, 7]⟩ : Shape).Idx → EReal) (B2 : (⟨1, ![7]⟩ : Shape).Idx → EReal)
    (r : Fin 16384) : EReal :=
  logit (fun d => X (ix2 r d)) (fun d k => W1 (ix2 d k)) (fun k => B1 (ix1 k)) (fun k o => W2 (ix2 k o)) (fun o => B2 (ix1 o))

/-- The result at row `r`, column `c`. -/
def gateAt (X1 X2 : (⟨2, ![16384, 4096]⟩ : Shape).Idx → EReal) (W1 : (⟨2, ![4096, 7]⟩ : Shape).Idx → EReal)
    (B1 : (⟨1, ![7]⟩ : Shape).Idx → EReal) (W2 : (⟨2, ![7, 7]⟩ : Shape).Idx → EReal) (B2 : (⟨1, ![7]⟩ : Shape).Idx → EReal)
    (r : Fin 16384) (c : Fin 4096) : EReal :=
  mix (rowLogit X1 W1 B1 W2 B2 r) (rowLogit X2 W1 B1 W2 B2 r) (X1 (ix2 r c)) (X2 (ix2 r c))

/-- The whole result array as one function of the six argument arrays. -/
def gated (X1 X2 : (⟨2, ![16384, 4096]⟩ : Shape).Idx → EReal) (W1 : (⟨2, ![4096, 7]⟩ : Shape).Idx → EReal)
    (B1 : (⟨1, ![7]⟩ : Shape).Idx → EReal) (W2 : (⟨2, ![7, 7]⟩ : Shape).Idx → EReal) (B2 : (⟨1, ![7]⟩ : Shape).Idx → EReal) :
    (⟨2, ![16384, 4096]⟩ : Shape).Idx → EReal :=
  fun i => gateAt X1 X2 W1 B1 W2 B2 (i 0) (i 1)

theorem gated_ix2 (X1 X2 : (⟨2, ![16384, 4096]⟩ : Shape).Idx → EReal) (W1 : (⟨2, ![4096, 7]⟩ : Shape).Idx → EReal)
    (B1 : (⟨1, ![7]⟩ : Shape).Idx → EReal) (W2 : (⟨2, ![7, 7]⟩ : Shape).Idx → EReal) (B2 : (⟨1, ![7]⟩ : Shape).Idx → EReal)
    (r : Fin 16384) (c : Fin 4096) :
    gated X1 X2 W1 B1 W2 B2 (ix2 r c) = gateAt X1 X2 W1 B1 W2 B2 r c := rfl

end Cert.Gating

end
-- ==== Proof.KernelRow.lean ====
/-
  The kernel body's two logit columns, read at a row.

  For the blocks `P0` (512 rows of features), `P1` (the first layer's weights, stored output-major: [7, 4096]),
  `P2` (its bias as a row [1, 7]), `P3` (the second layer's weights [7, 7]) and `P4` (its bias as a row), the body's
  column of logits at row `r` is `Gating.logit` of that row: each matrix product into a zero accumulator is the sum
  over its one contracted axis, the lane reduction is the sum over the seven outputs, the bias rows are read at their
  only row, and the positive part and the division by seven are pointwise.
-/
import proofs.«145555_j57062935494767_2_alg».proof.Proof.Gen.KernelIdeal.Skeleton
import proofs.«145555_j57062935494767_2_alg».proof.Proof.GateSpec
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- The first layer's product: features [512, 4096] against weights [7, 4096], both contracted on their second axis. -/
abbrev D1 : DotDims S512x4096 S7x4096 S512x7 := dot_S512x4096_S7x4096_S512x7_1_1_0_0_n_n
/-- The second layer's product: hidden units [512, 7] against weights [7, 7], contracted on the hidden axis. -/
abbrev D2 : DotDims S512x7 S7x7 S512x7 := dot_S512x7_S7x7_S512x7_1_0_0_1_n_n

/-- The first product's operand indices, axis by axis: the kept axis of each operand carries the result's coordinate,
    the contracted axis the contraction index. -/
theorem l1_lhs0 (i : S512x7.Idx) (q : D1.contr.Idx) : (D1.lhsIdx i q 0).val = (i 0).val := by
  unfold DotDims.lhsIdx
  rw [dif_neg (show ¬(0 : Fin S512x4096.rank) ∈ D1.lhsBatch by decide), dif_pos (show (0 : Fin S512x4096.rank) ∈ D1.lhsNonContracting by decide)]
  rfl
theorem l1_lhs1 (i : S512x7.Idx) (q : D1.contr.Idx) : (D1.lhsIdx i q 1).val = (q ⟨0, by decide⟩).val :=
  D1.lhsIdx_val_of_single rfl i q
theorem l1_rhs0 (i : S512x7.Idx) (q : D1.contr.Idx) : (D1.rhsIdx i q 0).val = (i 1).val := by
  unfold DotDims.rhsIdx
  rw [dif_neg (show ¬(0 : Fin S7x4096.rank) ∈ D1.rhsBatch by decide), dif_pos (show (0 : Fin S7x4096.rank) ∈ D1.rhsNonContracting by decide)]
  rfl
theorem l1_rhs1 (i : S512x7.Idx) (q : D1.contr.Idx) : (D1.rhsIdx i q 1).val = (q ⟨0, by decide⟩).val :=
  D1.rhsIdx_val_of_single rfl i q

/-- The first layer's matrix product into a zero accumulator, at (r, k): the sum over the 4096 features of row `r`
    against row `k` of the output-major weights. -/
theorem layer1_at (prec : Option ContractPrecision) (L : FVec Ideal S512x4096 .f32) (R : FVec Ideal S7x4096 .f32)
    (r : Fin 512) (k : Fin 7) :
    matmul D1 prec L R (constant S512x7 .f32 0x00000000#32) (ix2 r k) = ∑ d : Fin 4096, L (ix2 r d) * R (ix2 k d) := by
  simp only [matmul]
  rw [Ideal.matmul_constant_zero_apply, ← Equiv.sum_comp (contrEquiv1 D1 4096 rfl rfl).symm]
  refine Finset.sum_congr rfl fun d _ => ?_
  have hk := contrEquiv1_symm_val D1 4096 rfl rfl d
  have el : D1.lhsIdx (ix2 r k) ((contrEquiv1 D1 4096 rfl rfl).symm d) = ix2 r d := funext fun a => Fin.ext (by
    match a with
    | ⟨0, _⟩ => exact l1_lhs0 _ _
    | ⟨1, _⟩ => exact (l1_lhs1 _ _).trans hk)
  have er : D1.rhsIdx (ix2 r k) ((contrEquiv1 D1 4096 rfl rfl).symm d) = ix2 k d := funext fun a => Fin.ext (by
    match a with
    | ⟨0, _⟩ => exact l1_rhs0 _ _
    | ⟨1, _⟩ => exact (l1_rhs1 _ _).trans hk)
  rw [el, er]

/-- The second product's operand indices, axis by axis. -/
theorem l2_lhs0 (i : S512x7.Idx) (q : D2.contr.Idx) : (D2.lhsIdx i q 0).val = (i 0).val := by
  unfold DotDims.lhsIdx
  rw [dif_neg (show ¬(0 : Fin S512x7.rank) ∈ D2.lhsBatch by decide), dif_pos (show (0 : Fin S512x7.rank) ∈ D2.lhsNonContracting by decide)]
  rfl
theorem l2_lhs1 (i : S512x7.Idx) (q : D2.contr.Idx) : (D2.lhsIdx i q 1).val = (q ⟨0, by decide⟩).val :=
  D2.lhsIdx_val_of_single rfl i q
theorem l2_rhs0 (i : S512x7.Idx) (q : D2.contr.Idx) : (D2.rhsIdx i q 0).val = (q ⟨0, by decide⟩).val :=
  D2.rhsIdx_val_of_single rfl i q
theorem l2_rhs1 (i : S512x7.Idx) (q : D2.contr.Idx) : (D2.rhsIdx i q 1).val = (i 1).val := by
  unfold DotDims.rhsIdx
  rw [dif_neg (show ¬(1 : Fin S7x7.rank) ∈ D2.rhsBatch by decide), dif_pos (show (1 : Fin S7x7.rank) ∈ D2.rhsNonContracting by decide)]
  rfl

/-- The second layer's matrix product into a zero accumulator, at (r, o): the sum over the seven hidden units. -/
theorem layer2_at (prec : Option ContractPrecision) (L : FVec Ideal S512x7 .f32) (R : FVec Ideal S7x7 .f32)
    (r : Fin 512) (o : Fin 7) :
    matmul D2 prec L R (constant S512x7 .f32 0x00000000#32) (ix2 r o) = ∑ k : Fin 7, L (ix2 r k) * R (ix2 k o) := by
  simp only [matmul]
  rw [Ideal.matmul_constant_zero_apply, ← Equiv.sum_comp (contrEquiv1 D2 7 rfl rfl).symm]
  refine Finset.sum_congr rfl fun k _ => ?_
  have hk := contrEquiv1_symm_val D2 7 rfl rfl k
  have el : D2.lhsIdx (ix2 r o) ((contrEquiv1 D2 7 rfl rfl).symm k) = ix2 r k := funext fun a => Fin.ext (by
    match a with
    | ⟨0, _⟩ => exact l2_lhs0 _ _
    | ⟨1, _⟩ => exact (l2_lhs1 _ _).trans hk)
  have er : D2.rhsIdx (ix2 r o) ((contrEquiv1 D2 7 rfl rfl).symm k) = ix2 k o := funext fun a => Fin.ext (by
    match a with
    | ⟨0, _⟩ => exact (l2_rhs0 _ _).trans hk
    | ⟨1, _⟩ => exact l2_rhs1 _ _)
  rw [el, er]

/-- A bias row [1, 7] broadcast down the 512 rows reads, at (r, k), the row's entry `k`. -/
theorem biasRow_at {α : Type} (P : S1x7.Idx → α) (hb : S1x7.Broadcasts S512x7) (r : Fin 512) (k : Fin 7) :
    broadcastTo S512x7 P hb (ix2 r k) = P (ix2 (0 : Fin 1) k) := by
  exact broadcastTo_apply P hb (ix2 r k) (ix2 (0 : Fin 1) k) (fun a => match a with
    | ⟨0, _⟩ => by show 0 = (if (1 : Nat) = 1 then 0 else r.val); rw [if_pos rfl]
    | ⟨1, _⟩ => by show k.val = (if (7 : Nat) = 1 then 0 else k.val); rw [if_neg (by decide)])

/-- The lane sum of a [512, 7] value, kept as a column [512, 1], reads at (r, ·) the sum of row `r`'s seven entries. -/
theorem laneSum_at (v : FVec Ideal S512x7 .f32) (h : S512x7.Reduces [1] S512) (hφ : FKind.Formats .f32)
    (hacc : (0x00000000#32 : BitVec 32) = 0x00000000#32) (hs : S512.ShapeCasts S512x1) (r : Fin 512) (u : Fin 1) :
    shapeCast S512x1 (multiReduction .add [1] S512 v 0x00000000#32 h hφ hacc) hs (ix2 r u) = ∑ o : Fin 7, v (ix2 r o) := by
  refine (shapeCast_apply _ hs (ix2 r u) (ix1 r) ?_).trans ?_
  · have hu : u.val = 0 := by omega
    rw [Shape.rowMajor_val_two, Shape.rowMajor_val_one]
    show r.val = r.val * 1 + u.val
    omega
  · refine (Ideal.multiReduction_add_single v 0x00000000#32 h hφ hacc (ix1 r)).trans ?_
    refine Finset.sum_congr rfl fun o _ => congrArg v ?_
    funext a
    apply Fin.ext
    match a with
    | ⟨0, _⟩ => rfl
    | ⟨1, _⟩ => rfl

/-- The body's first logit column at row `r` is the row's logit. -/
theorem pay5_at (P0 : Vec Ideal S512x4096 .f32) (P1 : Vec Ideal S7x4096 .f32) (P2 : Vec Ideal S1x7 .f32)
    (P3 : Vec Ideal S7x7 .f32) (P4 : Vec Ideal S1x7 .f32) (r : Fin 512) (u : Fin 1) :
    k0_pay5 P0 P1 P2 P3 P4 (ix2 r u)
      = Cert.Gating.logit (fun d => P0 (ix2 r d)) (fun d k => P1 (ix2 k d)) (fun k => P2 (ix2 (0 : Fin 1) k))
          (fun k o => P3 (ix2 k o)) (fun o => P4 (ix2 (0 : Fin 1) o)) := by
  unfold k0_pay5 k0_pay2 k0_pay3 k0_pay4 Cert.Gating.logit
  refine congrArg (fun z => Ideal.div z (Ideal.ofBits .f32 0x40E00000#32)) ?_
  refine (laneSum_at _ _ _ _ _ r u).trans ?_
  refine Finset.sum_congr rfl fun o _ => ?_
  simp only [addf_apply, layer2_at, maximumf_apply, layer1_at, biasRow_at, broadcast_apply, shapeCast_self,
    Ideal.ofBits_def, Ideal.ofBits_zero_f32]

/-- The second logit column is the same function of the second feature block. -/
theorem pay6_eq (P5 : Vec Ideal S512x4096 .f32) (P1 : Vec Ideal S7x4096 .f32) (P2 : Vec Ideal S1x7 .f32)
    (P3 : Vec Ideal S7x7 .f32) (P4 : Vec Ideal S1x7 .f32) : k0_pay6 P5 P1 P2 P3 P4 = k0_pay5 P5 P1 P2 P3 P4 := rfl

/-- A column [512, 1] broadcast along the 4096 lanes reads, at (p, q), the column's entry `p`. -/
theorem colBcast_at {α : Type} (P : S512x1.Idx → α) (hb : S512x1.Broadcasts S512x4096) (p : Fin 512) (q : Fin 4096) :
    broadcastTo S512x4096 P hb (ix2 p q) = P (ix2 p (0 : Fin 1)) :=
  broadcastTo_apply P hb (ix2 p q) (ix2 p (0 : Fin 1)) (fun a => match a with
    | ⟨0, _⟩ => by show p.val = (if (512 : Nat) = 1 then 0 else p.val); rw [if_neg (by decide)]
    | ⟨1, _⟩ => by show 0 = (if (1 : Nat) = 1 then 0 else q.val); rw [if_pos rfl])

/-- The exponential of a vector, at an index. -/
theorem exp_at {s : Shape} {φ : FTy} (v : FVec Ideal s φ) (i : s.Idx) : exp v i = Ideal.exp (v i) := rfl

/-- What the body stores, at (p, q): the two-way softmax of row `p`'s two logits applied to the two feature entries. -/
theorem pay1_at (P0 P5 : Vec Ideal S512x4096 .f32) (P1 : Vec Ideal S7x4096 .f32) (P2 : Vec Ideal S1x7 .f32)
    (P3 : Vec Ideal S7x7 .f32) (P4 : Vec Ideal S1x7 .f32) (p : Fin 512) (q : Fin 4096) :
    k0_pay1 P0 P5 (k0_pay8 P0 P5 P1 P2 P3 P4) (k0_pay9 P0 P5 P1 P2 P3 P4) (ix2 p q)
      = Cert.Gating.mix (k0_pay5 P0 P1 P2 P3 P4 (ix2 p (0 : Fin 1))) (k0_pay6 P5 P1 P2 P3 P4 (ix2 p (0 : Fin 1)))
          (P0 (ix2 p q)) (P5 (ix2 p q)) := by
  unfold k0_pay1 k0_pay8 k0_pay9 k0_pay7 Cert.Gating.mix
  simp only [addf_apply, mulf_apply, colBcast_at, divf_apply, exp_at, subf_apply, maximumf_apply]

end Cert.KernelIdeal.Row

end
-- ==== Proof.KernelValue.lean ====
/-
  The kernel's result array as one function of its six arguments.

  Grid point `t` (of 32) sees rows `512 t … 512 t + 511` of the two feature arrays and the whole of the four small
  operands: the first layer's weights transposed to [7, 4096] (so its entry (k, d) is `W1 (d, k)`), the two biases
  as rows [1, 7], the second layer's weights as they are. By the row reading of the body the block it writes back
  is the block of `Gating.gated` at the same rows; the 32 row blocks cover the [16384, 4096] array, so the array ends
  holding `Gating.gated` of the arguments.
-/
import proofs.«145555_j57062935494767_2_alg».proof.Proof.KernelValueP
import proofs.«145555_j57062935494767_2_alg».proof.Proof.KernelRow
import proofs.«145555_j57062935494767_2_alg».proof.Proof.GateSpec
import Idealize.ShloMosaic.Lib.Pipeline.Value
import Idealize.ShloMosaic.Lib.ValueIdx
import Idealize.ShloMosaic.Lib.ValueLayout
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo

/-- The body's stored value at a block index `y` is `Gating.gated` at the array index `i` in the same column and at row
    `512 b + (y's row)`, for blocks that are: rows `512 b …` of the features, the transposed first-layer weights, the
    biases as rows, the second-layer weights. -/
theorem block_var (X1 X2 : S16384x4096.Idx → EReal) (W1 : S4096x7.Idx → EReal) (B1 : S7.Idx → EReal)
    (W2 : S7x7.Idx → EReal) (B2 : S7.Idx → EReal)
    (P0 P5 : Vec Ideal S512x4096 .f32) (P1 : Vec Ideal S7x4096 .f32) (P2 : Vec Ideal S1x7 .f32)
    (P3 : Vec Ideal S7x7 .f32) (P4 : Vec Ideal S1x7 .f32) (b : Nat)
    (h0 : ∀ (p : Fin 512) (q : Fin 4096) (R : Fin 16384), R.val = 512 * b + p.val → P0 (ix2 p q) = X1 (ix2 R q))
    (h5 : ∀ (p : Fin 512) (q : Fin 4096) (R : Fin 16384), R.val = 512 * b + p.val → P5 (ix2 p q) = X2 (ix2 R q))
    (h1 : ∀ (k : Fin 7) (d : Fin 4096), P1 (ix2 k d) = W1 (ix2 d k))
    (h2 : ∀ k : Fin 7, P2 (ix2 (0 : Fin 1) k) = B1 (ix1 k))
    (h3 : ∀ k o : Fin 7, P3 (ix2 k o) = W2 (ix2 k o))
    (h4 : ∀ o : Fin 7, P4 (ix2 (0 : Fin 1) o) = B2 (ix1 o))
    (y : S512x4096.Idx) (i : S16384x4096.Idx) (hi0 : (i 0).val = 512 * b + (y 0).val) (hi1 : (i 1).val = (y 1).val) :
    k0_pay1 P0 P5 (k0_pay8 P0 P5 P1 P2 P3 P4) (k0_pay9 P0 P5 P1 P2 P3 P4) y = Cert.Gating.gated X1 X2 W1 B1 W2 B2 i := by
  obtain ⟨p, q, rfl⟩ : ∃ (p : Fin 512) (q : Fin 4096), y = ix2 p q := ⟨y 0, y 1, eq_ix2 y⟩
  obtain ⟨R, c, rfl⟩ : ∃ (R : Fin 16384) (c : Fin 4096), i = ix2 R c := ⟨i 0, i 1, eq_ix2 i⟩
  have hR : R.val = 512 * b + p.val := hi0
  have hc : c = q := Fin.ext hi1
  subst hc
  have e0 : (fun d => P0 (ix2 p d)) = fun d => X1 (ix2 R d) := funext fun d => h0 p d R hR
  have e5 : (fun d => P5 (ix2 p d)) = fun d => X2 (ix2 R d) := funext fun d => h5 p d R hR
  have e1 : (fun (d : Fin 4096) (k : Fin 7) => P1 (ix2 k d)) = fun d k => W1 (ix2 d k) := funext fun d => funext fun k => h1 k d
  have e2 : (fun k => P2 (ix2 (0 : Fin 1) k)) = fun k => B1 (ix1 k) := funext h2
  have e3 : (fun (k o : Fin 7) => P3 (ix2 k o)) = fun k o => W2 (ix2 k o) := funext fun k => funext fun o => h3 k o
  have e4 : (fun o => P4 (ix2 (0 : Fin 1) o)) = fun o => B2 (ix1 o) := funext h4
  rw [Row.pay1_at, Row.pay6_eq, Row.pay5_at, Row.pay5_at, Cert.Gating.gated_ix2]
  unfold Cert.Gating.gateAt Cert.Gating.rowLogit
  rw [e0, e5, e1, e2, e3, e4, h0 p c R hR, h5 p c R hR]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature windows and the result window are at block row `t`, the four
    small operands at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first feature window's block at point `t` is rows `512 t …` of the first argument. -/
theorem feat1_at (c : Dev nD) (t : Fin cfg0.N) (p : Fin 512) (q : Fin 4096) (R : Fin 16384) (hR : R.val = 512 * t.val + p.val) :
    (iblk m c 0 t : Vec Ideal S512x4096 .f32) (ix2 p q) = (m ((c : Thread nD τ).loc main_arg0) : S16384x4096.Idx → EReal) (ix2 R q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = R.val; rw [e0, hR]; omega
  | ⟨1, _⟩ => show win0_0.index t (1 : Fin 2) * 4096 + 1 * q.val = q.val; rw [e1]; omega

/-- The second feature window's block at point `t` is rows `512 t …` of the second argument. -/
theorem feat2_at (c : Dev nD) (t : Fin cfg0.N) (p : Fin 512) (q : Fin 4096) (R : Fin 16384) (hR : R.val = 512 * t.val + p.val) :
    (iblk m c 1 t : Vec Ideal S512x4096 .f32) (ix2 p q) = (m ((c : Thread nD τ).loc main_arg1) : S16384x4096.Idx → EReal) (ix2 R q) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = R.val; rw [e0, hR]; omega
  | ⟨1, _⟩ => show win0_1.index t (1 : Fin 2) * 4096 + 1 * q.val = q.val; rw [e1]; omega

/-- What the region finds in the three arrays the host operations wrote: the transposed first-layer weights and the
    two biases recast as rows. -/
theorem V_w1t (c : Dev nD) : (V m c main_v0 : S7x4096.Idx → EReal)
    = transpose S7x4096 [1, 0] (m ((c : Thread nD τ).loc main_arg2) : S4096x7.Idx → EReal) transposes_S4096x7_S7x4096_1_0 := by
  dsimp only [Gen.V, Gen.hostOps0]; after_results <;> rfl
theorem V_b1 (c : Dev nD) : (V m c main_v1 : S1x7.Idx → EReal)
    = shapeCast S1x7 (m ((c : Thread nD τ).loc main_arg3) : S7.Idx → EReal) shapeCasts_S7_S1x7 := by
  dsimp only [Gen.V, Gen.hostOps0]; after_results <;> rfl
theorem V_b2 (c : Dev nD) : (V m c main_v2 : S1x7.Idx → EReal)
    = shapeCast S1x7 (m ((c : Thread nD τ).loc main_arg5) : S7.Idx → EReal) shapeCasts_S7_S1x7 := by
  dsimp only [Gen.V, Gen.hostOps0]; after_results <;> rfl

/-- The weights' window holds, at (k, d), the first layer's weight from feature `d` to hidden unit `k`. -/
theorem w1_at (c : Dev nD) (t : Fin cfg0.N) (k : Fin 7) (d : Fin 4096) :
    (iblk m c 2 t : Vec Ideal S7x4096 .f32) (ix2 k d) = (m ((c : Thread nD τ).loc main_arg2) : S4096x7.Idx → EReal) (ix2 d k) := by
  obtain ⟨-, -, -, -, e0, e1, -⟩ := idx_facts t
  have he : ((cfg0.win 2).blk t).view.emb (ix2 k d) = (ix2 k d : S7x4096.Idx) := by
    funext a
    apply Fin.ext
    match a with
    | ⟨0, _⟩ => show win0_2.index t (0 : Fin 2) * 7 + 1 * k.val = k.val; rw [e0]; omega
    | ⟨1, _⟩ => show win0_2.index t (1 : Fin 2) * 4096 + 1 * d.val = d.val; rw [e1]; omega
  unfold iblk
  rw [View.read_apply, he]
  show V m c main_v0 _ = _
  rw [V_w1t]
  exact transpose_apply [1, 0] _ transposes_S4096x7_S7x4096_1_0 (ix2 k d) (ix2 d k) (fun b => match b with
    | ⟨0, _⟩ => rfl
    | ⟨1, _⟩ => rfl)

/-- The first bias's window holds it as the one row. -/
theorem b1_at (c : Dev nD) (t : Fin cfg0.N) (k : Fin 7) :
    (iblk m c 3 t : Vec Ideal S1x7 .f32) (ix2 (0 : Fin 1) k) = (m ((c : Thread nD τ).loc main_arg3) : S7.Idx → EReal) (ix1 k) := by
  obtain ⟨-, -, -, -, -, -, e0, e1, -⟩ := idx_facts t
  have he : ((cfg0.win 3).blk t).view.emb (ix2 (0 : Fin 1) k) = (ix2 (0 : Fin 1) k : S1x7.Idx) := by
    funext a
    apply Fin.ext
    match a with
    | ⟨0, _⟩ => show win0_3.index t (0 : Fin 2) * 1 + 1 * 0 = 0; rw [e0]
    | ⟨1, _⟩ => show win0_3.index t (1 : Fin 2) * 7 + 1 * k.val = k.val; rw [e1]; omega
  unfold iblk
  rw [View.read_apply, he]
  show V m c main_v1 _ = _
  rw [V_b1]
  exact shapeCast_a_1a_apply _ shapeCasts_S7_S1x7 (0 : Fin 1) k

/-- The second layer's weights' window holds them as they are. -/
theorem w2_at (c : Dev nD) (t : Fin cfg0.N) (k o : Fin 7) :
    (iblk m c 4 t : Vec Ideal S7x7 .f32) (ix2 k o) = (m ((c : Thread nD τ).loc main_arg4) : S7x7.Idx → EReal) (ix2 k o) := by
  obtain ⟨-, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_4.index t (0 : Fin 2) * 7 + 1 * k.val = k.val; rw [e0]; omega
  | ⟨1, _⟩ => show win0_4.index t (1 : Fin 2) * 7 + 1 * o.val = o.val; rw [e1]; omega

/-- The second bias's window holds it as the one row. -/
theorem b2_at (c : Dev nD) (t : Fin cfg0.N) (o : Fin 7) :
    (iblk m c 5 t : Vec Ideal S1x7 .f32) (ix2 (0 : Fin 1) o) = (m ((c : Thread nD τ).loc main_arg5) : S7.Idx → EReal) (ix1 o) := by
  obtain ⟨-, -, -, -, -, -, -, -, -, -, e0, e1, -⟩ := idx_facts t
  have he : ((cfg0.win 5).blk t).view.emb (ix2 (0 : Fin 1) o) = (ix2 (0 : Fin 1) o : S1x7.Idx) := by
    funext a
    apply Fin.ext
    match a with
    | ⟨0, _⟩ => show win0_5.index t (0 : Fin 2) * 1 + 1 * 0 = 0; rw [e0]
    | ⟨1, _⟩ => show win0_5.index t (1 : Fin 2) * 7 + 1 * o.val = o.val; rw [e1]; omega
  unfold iblk
  rw [View.read_apply, he]
  show V m c main_v2 _ = _
  rw [V_b2]
  exact shapeCast_a_1a_apply _ shapeCasts_S7_S1x7 (0 : Fin 1) o

/-- The result: `Gating.gated` of the six arguments as launched. -/
abbrev result (c : Dev nD) : Buf (Elt Ideal) ((c : Thread nD τ).loc main_v3) :=
  Cert.Gating.gated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the result. -/
theorem flushed_eq (c : Dev nD) (t : Fin cfg0.N) :
    (dats m 0 c).flushed 6 t = ((cfg0.win 6).blk t).view.read (Elt Ideal) (result m c) := by
  rw [Cert.KernelIdeal.ValueP.flushed6]
  unfold out0_6
  rw [View.canon_unit_zero hz]
  simp only [View.ld_unit_zero (S := S512x4096) hz, View.ld_unit_zero (S := S7x4096) hz, View.ld_unit_zero (S := S1x7) hz,
    View.ld_unit_zero (S := S7x7) hz]
  obtain ⟨-, -, -, -, -, -, -, -, -, -, -, -, e0, e1⟩ := idx_facts t
  funext j
  exact block_var (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) t.val
    (feat1_at m c t) (feat2_at m c t) (w1_at m c t) (b1_at m c t) (w2_at m c t) (b2_at m c t)
    j (((cfg0.win 6).blk t).view.emb j)
    (by show win0_6.index t (0 : Fin 2) * 512 + 1 * (j 0).val = 512 * t.val + (j 0).val; rw [e0]; omega)
    (by show win0_6.index t (1 : Fin 2) * 4096 + 1 * (j 1).val = (j 1).val; rw [e1]; omega)

/-- An index of the array is in point `t`'s block iff each coordinate is in the block's range on its axis. -/
theorem mem_blk (t : Fin cfg0.N) (i : S16384x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v3).slice (win0_6.rect t)).set ↔ _
  rw [View.set_slice_whole, Rect.mem_set_unit]
  exact Iff.rfl

/-- Row `r` of the array is in the block of point `r / 512`. -/
theorem cover (i : S16384x4096.Idx) : ∃ t : Fin cfg0.N, (cfg0.win 6).flush t = true ∧ i ∈ ((cfg0.win 6).blk t).view.set := by
  have hN : cfg0.N = 32 := N_0
  have hi0 : (i 0).val < 16384 := (i 0).isLt
  have hi1 : (i 1).val < 4096 := (i 1).isLt
  refine ⟨⟨(i 0).val / 512, by rw [hN]; omega⟩, flush0_6 _, ?_⟩
  obtain ⟨-, -, -, -, -, -, -, -, -, -, -, -, e0, e1⟩ := idx_facts ⟨(i 0).val / 512, by rw [hN]; omega⟩
  rw [mem_blk]
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 4096 ≤ (i 1).val ∧ (i 1).val < win0_6.index _ (1 : Fin 2) * 4096 + 4096
    rw [e1]; omega

/-- So the result array ends holding `result`. -/
theorem final (c : Dev nD) : (dats m 0 c).arrAt 6 cfg0.N = result m c :=
  (dats m 0 c).arrAt_eq_of_cover 6 (result m c) (fun t _ => flushed_eq m c t) cover

/-- The run, read: every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.ValueP.run_blocks m ρ)

end Cert.KernelIdeal.Whole

end
-- ==== Proof.RefValue.lean ====
/-
  The reference's result, read at an index, is `Gating.gated` of its arguments.

  Row `R` of either feature array goes through the two linear layers (a sum over the 4096 features, the bias, the
  positive part; a sum over the seven hidden units, the bias) and the mean of the seven outputs: its logit. The two
  logits are laid side by side as a [16384, 2] array; the row maximum is taken from `-∞` (and once more against `-∞`,
  which changes nothing), subtracted, exponentiated, and each exponential divided by the row's sum `0 + (e₁ + e₂)`;
  the two columns of weights multiply the two feature arrays, and the products are added.
-/
import proofs.«145555_j57062935494767_2_alg».proof.Proof.Gen.ReferenceIdeal.Read
import proofs.«145555_j57062935494767_2_alg».proof.Proof.GateSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The argument arrays' types: features [16384, 4096], first weights [4096, 7], a bias [7], second weights [7, 7]. -/
abbrev Feat : Type := (⟨S16384x4096, .f32⟩ : BufTy).Contents (Elt Ideal)
abbrev Wt1 : Type := (⟨S4096x7, .f32⟩ : BufTy).Contents (Elt Ideal)
abbrev Bias : Type := (⟨S7, .f32⟩ : BufTy).Contents (Elt Ideal)
abbrev Wt2 : Type := (⟨S7x7, .f32⟩ : BufTy).Contents (Elt Ideal)

variable (x0 x1 : Feat) (x2 : Wt1) (x3 : Bias) (x4 : Wt2) (x5 : Bias)

/-- A hidden unit of row `R`: the positive part of the row's product with column `k` of the weights plus the bias. -/
theorem hidden_at (R : Fin 16384) (k : Fin 7) :
    val_main_v4 (F := Ideal) x0 x2 x3 (ix2 R k) = max ((∑ d : Fin 4096, x0 (ix2 R d) * x2 (ix2 d k)) + x3 (ix1 k)) 0 := by
  rw [val_main_v4_apply, val_main_v3_apply, val_main_v0_apply, val_main_v2_apply, val_main_v1_apply,
    val_main_call0_v0_apply, val_main_call0_cst_apply]
  show max ((∑ d : Fin 4096, x0 (lidx_main_v0 (ix2 R k) d) * x2 (ridx_main_v0 (ix2 R k) d)) + x3 (idx_main_v1 (idx_main_v2 (ix2 R k))))
    (Ideal.ofBits .f32 0x00000000#32) = _
  have e3 : idx_main_v1 (idx_main_v2 (ix2 R k)) = ix1 k := funext fun a => by match a with | ⟨0, _⟩ => rfl
  rw [Ideal.ofBits_zero_f32, e3]
  refine congrArg (fun z => max (z + x3 (ix1 k)) 0) (Finset.sum_congr rfl fun d _ => ?_)
  have e1 : lidx_main_v0 (ix2 R k) d = ix2 R d := funext fun a => by match a with | ⟨0, _⟩ => rfl | ⟨1, _⟩ => rfl
  have e2 : ridx_main_v0 (ix2 R k) d = ix2 d k := funext fun a => by match a with | ⟨0, _⟩ => rfl | ⟨1, _⟩ => rfl
  rw [e1, e2]

/-- An output of the gate network on row `R`. -/
theorem out_at (R : Fin 16384) (o : Fin 7) :
    val_main_v8 (F := Ideal) x0 x2 x3 x4 x5 (ix2 R o)
      = (∑ k : Fin 7, max ((∑ d : Fin 4096, x0 (ix2 R d) * x2 (ix2 d k)) + x3 (ix1 k)) 0 * x4 (ix2 k o)) + x5 (ix1 o) := by
  rw [val_main_v8_apply, val_main_v5_apply, val_main_v7_apply, val_main_v6_apply]
  have e3 : idx_main_v6 (idx_main_v7 (ix2 R o)) = ix1 o := funext fun a => by match a with | ⟨0, _⟩ => rfl
  rw [e3]
  show (∑ k : Fin 7, val_main_v4 (F := Ideal) x0 x2 x3 (lidx_main_v5 (ix2 R o) k) * x4 (ridx_main_v5 (ix2 R o) k)) + x5 (ix1 o) = _
  refine congrArg (fun z => z + x5 (ix1 o)) (Finset.sum_congr rfl fun k _ => ?_)
  have e1 : lidx_main_v5 (ix2 R o) k = ix2 R k := funext fun a => by match a with | ⟨0, _⟩ => rfl | ⟨1, _⟩ => rfl
  have e2 : ridx_main_v5 (ix2 R o) k = ix2 k o := funext fun a => by match a with | ⟨0, _⟩ => rfl | ⟨1, _⟩ => rfl
  rw [e1, e2, hidden_at]

/-- The first logit of row `R`. -/
theorem logit1_at (R : Fin 16384) :
    val_main_v11 (F := Ideal) x0 x2 x3 x4 x5 (ix1 R) = Cert.Gating.rowLogit x0 x2 x3 x4 x5 R := by
  rw [val_main_v11_apply, val_main_v9_apply, val_main_v10_apply, val_main_cst_0_apply, val_main_cst_apply]
  unfold Cert.Gating.rowLogit Cert.Gating.logit
  show Ideal.div (Ideal.ofBits .f32 0x00000000#32 + ∑ o : Fin 7, val_main_v8 (F := Ideal) x0 x2 x3 x4 x5 (idx_main_v9 (ix1 R) o))
    (Ideal.ofBits .f32 0x40E00000#32) = _
  rw [Ideal.ofBits_zero_f32, zero_add]
  refine congrArg (fun z => Ideal.div z (Ideal.ofBits .f32 0x40E00000#32)) (Finset.sum_congr rfl fun o _ => ?_)
  have e : idx_main_v9 (ix1 R) o = ix2 R o := funext fun a => by match a with | ⟨0, _⟩ => rfl | ⟨1, _⟩ => rfl
  rw [e, out_at]

/-- The second logit is the same function of the second feature array. -/
theorem logit2_eq : val_main_v23 (F := Ideal) x1 x2 x3 x4 x5 = val_main_v11 (F := Ideal) x1 x2 x3 x4 x5 := rfl

/-- The two logits side by side: column 0 and column 1 of the joined array. -/
theorem cat0_at (R : Fin 16384) :
    val_main_v26 (F := Ideal) x0 x1 x2 x3 x4 x5 (ix2 R (0 : Fin 2)) = val_main_v11 (F := Ideal) x0 x2 x3 x4 x5 (ix1 R) := by
  unfold val_main_v26
  refine (concatenate_pair_apply_left (1 : Fin S16384x2.rank) _ _ concatenates_S16384x1_S16384x1_S16384x2_d1 (ix2 R (0 : Fin 2)) rfl
    (ix2 R (0 : Fin 1)) (fun b => by match b with | ⟨0, _⟩ => rfl | ⟨1, _⟩ => rfl)).trans ?_
  rw [val_main_v24_apply]
  exact congrArg _ (funext fun a => by match a with | ⟨0, _⟩ => rfl)
theorem cat1_at (R : Fin 16384) :
    val_main_v26 (F := Ideal) x0 x1 x2 x3 x4 x5 (ix2 R (1 : Fin 2)) = val_main_v11 (F := Ideal) x1 x2 x3 x4 x5 (ix1 R) := by
  unfold val_main_v26
  refine (concatenate_pair_apply_right (1 : Fin S16384x2.rank) _ _ concatenates_S16384x1_S16384x1_S16384x2_d1 (ix2 R (1 : Fin 2)) rfl rfl
    (ix2 R (0 : Fin 1)) (fun b hb => by match b with | ⟨0, _⟩ => rfl | ⟨1, _⟩ => exact absurd rfl hb) rfl).trans ?_
  rw [val_main_v25_apply, logit2_eq]
  exact congrArg _ (funext fun a => by match a with | ⟨0, _⟩ => rfl)

/-- The maximum of two extended reals taken from an initial value, as a fold over the two positions. -/
theorem fold_max_two (b : EReal) (f : Fin 2 → EReal) : (Finset.univ : Finset (Fin 2)).fold max b f = max (f 0) (max (f 1) b) := by
  rw [show (Finset.univ : Finset (Fin 2)) = {0, 1} from rfl]
  rw [Finset.fold_insert (by decide), Finset.fold_singleton]

/-- The pattern of `-∞` denotes the bottom of the extended reals. -/
theorem ofBits_neg_inf : Ideal.ofBits .f32 0xFF800000#32 = (⊥ : EReal) := by simp [Ideal.ofBits, Ideal.ieee]

/-- The row maximum the softmax subtracts is the larger of the two logits. -/
theorem rowMax_at (R : Fin 16384) :
    val_main_v29 (F := Ideal) x0 x1 x2 x3 x4 x5 (ix1 R)
      = max (val_main_v11 (F := Ideal) x0 x2 x3 x4 x5 (ix1 R)) (val_main_v11 (F := Ideal) x1 x2 x3 x4 x5 (ix1 R)) := by
  have h : S16384x2.Reduces [1] S16384 := by decide
  rw [val_main_v29_apply, val_main_v28_apply, val_main_cst_4_apply]
  unfold val_main_v27
  rw [Host.reduce_eq_fold_single FloatOps.maximumf _ _ reducesTo_S16384x2_S16384_d1 h h_S_]
  show max (Ideal.ofBits .f32 0xFF800000#32)
      ((Finset.univ : Finset (Fin 2)).fold max (Ideal.ofBits .f32 0xFF800000#32)
        (fun k : Fin 2 => val_main_v26 (F := Ideal) x0 x1 x2 x3 x4 x5 (h.lift (ix1 R) k))) = _
  have l0 : h.lift (ix1 R) (0 : Fin 2) = ix2 R (0 : Fin 2) := funext fun a => Fin.ext (by match a with | ⟨0, _⟩ => rfl | ⟨1, _⟩ => rfl)
  have l1 : h.lift (ix1 R) (1 : Fin 2) = ix2 R (1 : Fin 2) := funext fun a => Fin.ext (by match a with | ⟨0, _⟩ => rfl | ⟨1, _⟩ => rfl)
  rw [fold_max_two, l0, l1, cat0_at, cat1_at, ofBits_neg_inf, max_bot_right, bot_sup_eq]

/-- An exponential of the softmax at (R, j): the logit in column `j` less the row maximum. -/
theorem expo_at (R : Fin 16384) (j : Fin 2) :
    val_main_v33 (F := Ideal) x0 x1 x2 x3 x4 x5 (ix2 R j)
      = Ideal.exp (val_main_v26 (F := Ideal) x0 x1 x2 x3 x4 x5 (ix2 R j) - val_main_v29 (F := Ideal) x0 x1 x2 x3 x4 x5 (ix1 R)) := by
  rw [val_main_v33_apply, val_main_v32_apply, val_main_v31_apply, val_main_v30_apply]
  have e : idx_main_v30 (idx_main_v31 (ix2 R j)) = ix1 R := funext fun a => by match a with | ⟨0, _⟩ => rfl
  rw [e]
  rfl

/-- The softmax's denominator of row `R`: the two exponentials added onto zero. -/
theorem denom_at (R : Fin 16384) :
    val_main_v34 (F := Ideal) x0 x1 x2 x3 x4 x5 (ix1 R)
      = val_main_v33 (F := Ideal) x0 x1 x2 x3 x4 x5 (ix2 R (0 : Fin 2)) + val_main_v33 (F := Ideal) x0 x1 x2 x3 x4 x5 (ix2 R (1 : Fin 2)) := by
  rw [val_main_v34_apply, val_main_cst_5_apply]
  show Ideal.ofBits .f32 0x00000000#32 + ∑ k : Fin 2, val_main_v33 (F := Ideal) x0 x1 x2 x3 x4 x5 (idx_main_v34 (ix1 R) k) = _
  have e0 : idx_main_v34 (ix1 R) (0 : Fin 2) = ix2 R (0 : Fin 2) := funext fun a => by match a with | ⟨0, _⟩ => rfl | ⟨1, _⟩ => rfl
  have e1 : idx_main_v34 (ix1 R) (1 : Fin 2) = ix2 R (1 : Fin 2) := funext fun a => by match a with | ⟨0, _⟩ => rfl | ⟨1, _⟩ => rfl
  rw [Ideal.ofBits_zero_f32, zero_add, Fin.sum_univ_two, e0, e1]

/-- A softmax weight at (R, j). -/
theorem weight_at (R : Fin 16384) (j : Fin 2) :
    val_main_v37 (F := Ideal) x0 x1 x2 x3 x4 x5 (ix2 R j)
      = Ideal.div (val_main_v33 (F := Ideal) x0 x1 x2 x3 x4 x5 (ix2 R j)) (val_main_v34 (F := Ideal) x0 x1 x2 x3 x4 x5 (ix1 R)) := by
  rw [val_main_v37_apply, val_main_v36_apply, val_main_v35_apply]
  have e : idx_main_v35 (idx_main_v36 (ix2 R j)) = ix1 R := funext fun a => by match a with | ⟨0, _⟩ => rfl
  rw [e]
  rfl

/-- The result at (R, c): the two weights of row `R` against the two feature entries. -/
theorem combine_at (R : Fin 16384) (c : Fin 4096) :
    val_main_v44 (F := Ideal) x0 x1 x2 x3 x4 x5 (ix2 R c)
      = val_main_v37 (F := Ideal) x0 x1 x2 x3 x4 x5 (ix2 R (0 : Fin 2)) * x0 (ix2 R c)
        + val_main_v37 (F := Ideal) x0 x1 x2 x3 x4 x5 (ix2 R (1 : Fin 2)) * x1 (ix2 R c) := by
  rw [val_main_v44_apply, val_main_v40_apply, val_main_v43_apply, val_main_v39_apply, val_main_v38_apply,
    val_main_v42_apply, val_main_v41_apply]
  have e0 : idx_main_v38 (idx_main_v39 (ix2 R c)) = ix2 R (0 : Fin 2) := funext fun a => by match a with | ⟨0, _⟩ => rfl | ⟨1, _⟩ => rfl
  have e1 : idx_main_v41 (idx_main_v42 (ix2 R c)) = ix2 R (1 : Fin 2) := funext fun a => by match a with | ⟨0, _⟩ => rfl | ⟨1, _⟩ => rfl
  rw [e0, e1]
  rfl

/-- The reference's result array is `Gating.gated` of its six arguments. -/
theorem result_eq : val_main_v44 (F := Ideal) x0 x1 x2 x3 x4 x5 = Cert.Gating.gated x0 x1 x2 x3 x4 x5 := by
  funext i
  obtain ⟨R, c, rfl⟩ : ∃ (R : Fin 16384) (c : Fin 4096), i = ix2 R c := ⟨i 0, i 1, eq_ix2 i⟩
  rw [Cert.Gating.gated_ix2, combine_at, weight_at, weight_at, denom_at, expo_at, expo_at, cat0_at, cat1_at, rowMax_at,
    logit1_at, logit1_at]
  rfl

end Cert.ReferenceIdeal.RefValue

end
-- ==== Proof.lean ====
/-
  The gated two-expert combine: a Pallas kernel against its jnp reference, equal on the extended reals.

  Both programs take two feature arrays `X₁`, `X₂` of shape [16384, 4096], the weights `W1` [4096, 7], `W2` [7, 7] and
  the biases `b1`, `b2` [7] of a small gate network, and return, at (r, c),
      a₁(r) · X₁(r, c) + a₂(r) · X₂(r, c),
  where `aᵢ(r)` is the two-way softmax of the logits `lᵢ(r)`, the mean over the network's seven outputs on row `r` of
  `Xᵢ` (Proof/GateSpec.lean states the function, `Gating.gated`).

  The kernel walks the rows in 32 blocks of 512. Its first matrix product contracts the features against the weights
  transposed to [7, 4096] (a host transpose before the call), the reference's against `W1` as given: the same sum
  over the 4096 features. The kernel's lane reduction and the reference's `reduce` over the seven outputs are the
  same sum (the reference's starts from a zero that adds nothing). The reference takes the row maximum of the two
  logits from `-∞`, which is their maximum; its softmax denominator `0 + (e₁ + e₂)` is the kernel's `e₁ + e₂`. So the
  two results are one function of the arguments, at every extended-real input: no finiteness is used.

  The kernel's side (Proof/KernelRow.lean: the body's logit column at a row; Proof/KernelValue.lean: each window's
  block as rows of the arguments, the block written back at a grid point, the 32 blocks covering the array) ends in
  `Whole.run`; the reference's (Proof/RefValue.lean: its operations read at an index, one after the other) in
  `RefValue.result_eq` over the reference's run. The three frames are the programs' runs with the result dropped;
  the idealized kernel is the kernel's own text read on the extended reals, so nothing is owed for it.
-/
import proofs.«145555_j57062935494767_2_alg».proof.Defs
import proofs.«145555_j57062935494767_2_alg».proof.Proof.Gen.Kernel
import proofs.«145555_j57062935494767_2_alg».proof.Proof.Gen.Kernel.Frame
import proofs.«145555_j57062935494767_2_alg».proof.Proof.Gen.KernelIdeal
import proofs.«145555_j57062935494767_2_alg».proof.Proof.Gen.KernelIdeal.Frame
import proofs.«145555_j57062935494767_2_alg».proof.Proof.Gen.ReferenceIdeal
import proofs.«145555_j57062935494767_2_alg».proof.Proof.Gen.Pre_finite_inputs
import proofs.«145555_j57062935494767_2_alg».proof.Proof.Gen.ReferenceIdeal.Run
import proofs.«145555_j57062935494767_2_alg».proof.Proof.Gen.ReferenceIdeal.Read
import proofs.«145555_j57062935494767_2_alg».proof.Proof.KernelValue
import proofs.«145555_j57062935494767_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments the kernel's result array ends at `Gating.gated` of them (the blocks
    written back cover the array) and the reference's at its operations' term, which is `Gating.gated` of the same
    arguments index by index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v44_eq, Cert.ReferenceIdeal.RefValue.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
